-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x64 .f32) (main_arg1 : FVec F S100000x64 .f32) (main_arg2 : IVec S1600000 32) (main_arg3 : IVec S1600000 32) (main_arg4 : FVec F S1600000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩
abbrev S10000x64 : Shape := ⟨2, ![10000, 64]⟩

abbrev nBuf : Space → Nat
  | .hbm => 22
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v12) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S1600000x1 : Shape := ⟨2, ![1600000, 1]⟩
abbrev S_ : Shape := ⟨0, ![]⟩
abbrev S1600000x64 : Shape := ⟨2, ![1600000, 64]⟩

abbrev nBuf : Space → Nat
  | .hbm => 31
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S1600000x1, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1600000x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .hbm, ⟨21, _⟩ => ⟨S_, .f32⟩
  | .hbm, ⟨22, _⟩ => ⟨S100000x64, .f32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Mix.lean ====
/-
  The residual mix with a clamp at zero, as one function of two arrays.

  Write a for the single-precision word 0x3F666666 and b for the word 0x3DCCCCCD, each read as the
  number it denotes. One entry of the result is

      max (a * h + b * f) 0

  where h is the aggregated neighbour feature at that entry and f the initial feature there. The
  whole result array applies this entry by entry: entry i depends on entry i of each array and
  on nothing else. Both programs compute exactly this, with the same three words; they differ only in
  how the entries are grouped into tiles, which an entrywise function cannot see. Nothing here is
  particular to one reading of the floats: the three words are never evaluated and no law of
  arithmetic is used.
-/
import Idealize.ShloMosaic.PureOps

noncomputable section

namespace Cert.Mix

open Idealize.ShloMosaic

variable {F : FTy → Type} [FloatOps F]

/-- One entry: max (a * h + b * f) 0, with a, b and 0 given by their words. -/
def mix (h f : F .f32) : F .f32 :=
  FloatOps.maximumf
    (FloatOps.addf (FloatOps.mulf (FloatOps.ofBits .f32 0x3F666666#32) h)
      (FloatOps.mulf (FloatOps.ofBits .f32 0x3DCCCCCD#32) f))
    (FloatOps.ofBits .f32 0x00000000#32)

/-- The whole array: entry i is the mix of entry i of h and entry i of f. -/
def mixAll {s : Shape} (h f : s.Idx → F .f32) : s.Idx → F .f32 := fun i => mix (h i) (f i)

theorem mixAll_apply {s : Shape} (h f : s.Idx → F .f32) (i : s.Idx) : mixAll h f i = mix (h i) (f i) := rfl

end Cert.Mix

end
-- ==== Proof.Tiles.lean ====
/-
  From ten tiles to the whole array.

  The region runs its body at ten grid points. At point t each of its three windows — the aggregated
  features, the initial features, the result — is at the same tile: rows 10000 * t to 10000 * t + 9999,
  all 64 columns. The body loads the two input tiles whole, applies the residual mix with a clamp
  entry by entry, and stores the result tile whole. So what point t writes back is tile t of the
  entrywise function `Mix.mixAll` of the two arrays the region found (`tile_written`): the entry at
  position y of the tile reads both inputs at row 10000 * t + y_row, column y_col, which is where
  that entry lands in the result. Every row r lies in exactly the tile of point r / 10000
  (`tiles_cover`), so after the run the result array is the entrywise function of the two arrays
  everywhere (`whole_array`).
-/
import proofs.«157857_j85727547228210_2_alg».proof.Proof.Gen.KernelIdeal.Value
import proofs.«157857_j85727547228210_2_alg».proof.Proof.Mix
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's loads and its store start at row 0, column 0 of their tiles. -/
theorem origin : (![0, 0] : Fin 2 → Nat) = fun _ => 0 := funext fun a => by fin_cases a <;> rfl

/-- What the body leaves in the result tile, entry by entry: the mix of the two input tiles at the same position. -/
theorem tile_entry (x0 x1 : Vec F S10000x64 .f32) (y : S10000x64.Idx) :
    out0_2 x0 x1 y = Mix.mix (x0 y) (x1 y) := by
  unfold out0_2
  rw [View.ld_unit_zero origin, View.ld_unit_zero origin]
  refine (Value.canon2_eq x0 x1 y).trans ?_
  have e0 : Value.ix2_0 y = y := funext fun a => Fin.ext (by match a with | ⟨0, _⟩ => rfl | ⟨1, _⟩ => rfl)
  have e1 : Value.ix2_1 y = y := funext fun a => Fin.ext (by match a with | ⟨0, _⟩ => rfl | ⟨1, _⟩ => rfl)
  show Mix.mix (x0 (Value.ix2_0 y)) (x1 (Value.ix2_1 y)) = Mix.mix (x0 y) (x1 y)
  rw [e0, e1]

/-- At every grid point the three windows are at the same tile, and it is the tile numbered by the point:
    row block t, column block 0. -/
theorem same_tile : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) = t.val
    ∧ win0_2.index t (1 : Fin 2) = 0 :=
  (by decide +kernel : ∀ t : Fin grid0.N, _)

/-- What point t writes back is tile t of the entrywise mix of the aggregated features and the initial
    features, as the region found them. -/
theorem tile_written (c : Dev nD) (t : Fin cfg0.N) :
    (dats m 0 c).flushed 2 t
      = ((cfg0.win 2).blk t).view.read (Elt F) (Mix.mixAll (V m c main_v12) (V m c main_arg1)) := by
  rw [Value.flushed2]
  obtain ⟨e0, e1, e2, e3, -, -⟩ := same_tile t
  funext j
  refine (tile_entry (iblk m c 0 t) (iblk m c 1 t) j).trans ?_
  show Mix.mix (V m c main_v12 (((cfg0.win 0).blk t).view.emb j)) (V m c main_arg1 (((cfg0.win 1).blk t).view.emb j))
    = Mix.mix (V m c main_v12 (((cfg0.win 2).blk t).view.emb j)) (V m c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb j = ((cfg0.win 2).blk t).view.emb j := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 64 + 1 * (j 1).val = win0_2.index t (1 : Fin 2) * 64 + 1 * (j 1).val; omega
  rw [h0, h1]

/-- An entry of the result array is in point t's tile exactly when, on each axis, its coordinate is in the tile's range. -/
theorem mem_tile (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v13).slice (win0_2.rect t)).set ↔ _
  rw [View.set_slice_whole, Rect.mem_set_unit]
  exact Iff.rfl

/-- Every entry of the result array is in some point's tile: row r is in the tile of point r / 10000. -/
theorem tiles_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, by show _ < grid0.N; rw [N_0]; omega⟩, rfl⟩
  obtain ⟨-, -, -, -, q0, q1⟩ := same_tile t
  refine ⟨t, flush0_2 t, ?_⟩
  rw [mem_tile]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- After the run the result array is the entrywise mix of the aggregated features and the initial features, everywhere. -/
theorem whole_array (c : Dev nD) :
    (dats m 0 c).arrAt 2 cfg0.N = Mix.mixAll (V m c main_v12) (V m c main_arg1) :=
  (dats m 0 c).arrAt_eq_of_cover 2 _ (fun t _ => tile_written m c t) tiles_cover

end Cert.KernelIdeal.Tiles

end
-- ==== Proof.Aggregate.lean ====
/-
  What the kernel's region finds in its first operand.

  Before the region is launched the host has already aggregated the neighbour features: for every
  edge e it takes row cols[e] of the feature array (a negative column index first wrapped by adding
  the number of rows), scales that row by vals[e], and adds the scaled row into row rows[e] of an
  array that starts at zero. The region's first window stages this aggregated array; its second
  stages the initial features, which no host operation writes.

  `aggregate` names the aggregation as one function of the four argument arrays it depends on, and
  `entry_contents` says the array the region finds is that function of the arrays as launched. The
  aggregation is never opened: the reference performs the same operations on the same arrays, so
  it only has to be recognised as the same term on both sides.
-/
import proofs.«157857_j85727547228210_2_alg».proof.Proof.Gen.KernelIdeal.Frame
import Idealize.ShloMosaic.Lib.StableHlo.Run

noncomputable section

namespace Cert.KernelIdeal.Aggregate

open Cert.KernelIdeal Cert.KernelIdeal.Gen Idealize.ShloMosaic Idealize.ShloMosaic.TcCoe Idealize.SL.Sem
open Idealize.ShloMosaic.StableHlo

variable {F : FTy → Type} [FloatOps F]

/-- The aggregated neighbour features: gather the rows the column indices name, scale each by its
    edge value, and add it into the row its row index names, starting from zero. -/
def aggregate (x0 : (⟨S100000x64, .f32⟩ : BufTy).Contents (Elt F)) (x2 x3 : (⟨S1600000, .i32⟩ : BufTy).Contents (Elt F))
    (x4 : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0 x2)
    (mulf (broadcastInDim S1600000x64 ![0, 1] bcast_S1600000x1_S1600000x64_0_1 (broadcastInDim S1600000x1 ![0] bcast_S1600000_S1600000x1_0 x4))
      (Host.gather gather_S100000x64_S1600000x1_S1600000x64_1_0_n_n_0_1_164 x0
        (broadcastInDim S1600000x1 ![0] bcast_S1600000_S1600000x1_0
          (select (cmpi .slt x3 (broadcastInDim S1600000 ![] bcast_S_S1600000 (constantI S_ 32 0#32)))
            (addi x3 (broadcastInDim S1600000 ![] bcast_S_S1600000 (constantI S_ 32 100000#32))) x3))))

variable (m : (ℓ : Loc nD τ sig) → Buf (Elt F) ℓ)

/-- When the region is entered its first operand holds the aggregation of the argument arrays as launched. -/
theorem entry_contents (c : Dev nD) :
    (V m c main_v12 : (⟨S100000x64, .f32⟩ : BufTy).Contents (Elt F))
      = aggregate (m ((c : Thread nD τ).loc main_arg0)) (m ((c : Thread nD τ).loc main_arg2))
          (m ((c : Thread nD τ).loc main_arg3)) (m ((c : Thread nD τ).loc main_arg4)) := by
  dsimp only [Gen.V, Gen.hostOps0]
  after_results
  rfl

end Cert.KernelIdeal.Aggregate

end
-- ==== Proof.KernelRun.lean ====
/-
  The idealized kernel's run, with its result named.

  The generated frame run ends with the result array at what the ten write-backs leave. That array is
  the entrywise mix of the two arrays the region found (the tiles cover it), the first of which is
  the aggregation of the argument arrays as launched and the second the initial features as
  launched. So every execution ends with the result at

      mixAll (aggregate features rows cols vals) features0

  and the five argument arrays unchanged.
-/
import proofs.«157857_j85727547228210_2_alg».proof.Proof.Tiles
import proofs.«157857_j85727547228210_2_alg».proof.Proof.Aggregate

noncomputable section

namespace Cert.KernelIdeal.KernelRun

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The result array after the run, as one function of the argument arrays as launched. -/
theorem result (c : Dev nD) :
    (dats m 0 c).arrAt 2 cfg0.N
      = Mix.mixAll (Aggregate.aggregate (m ((c : Thread nD τ).loc main_arg0)) (m ((c : Thread nD τ).loc main_arg2))
          (m ((c : Thread nD τ).loc main_arg3)) (m ((c : Thread nD τ).loc main_arg4))) (m ((c : Thread nD τ).loc main_arg1)) := by
  rw [Tiles.whole_array m c, Aggregate.entry_contents m c, V_main_arg1 m c]

/-- Every weakly fair execution terminates with the result at that function and the arguments unchanged. -/
theorem run : θ_run defs (onTc (τ := τ) (main (F := F))) ⟨m, fun _ => 0, ρ⟩ fun r => ∀ c : Dev nD,
      r.2.mem ((c : Thread nD τ).loc main_v13)
        = Mix.mixAll (Aggregate.aggregate (m ((c : Thread nD τ).loc main_arg0)) (m ((c : Thread nD τ).loc main_arg2))
            (m ((c : Thread nD τ).loc main_arg3)) (m ((c : Thread nD τ).loc main_arg4))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result m c), (h c).2⟩) (Value.run_blocks m ρ)

end Cert.KernelIdeal.KernelRun

end
-- ==== Proof.RefMix.lean ====
/-
  The reference computes the same entrywise function.

  After the aggregation the reference multiplies the aggregated array by the splat of the word
  0x3F666666, the initial features by the splat of 0x3DCCCCCD, adds the two products, and takes the
  maximum with the splat of the zero word. A splat read at any entry is its word, and the three
  arithmetic operations act entry by entry, so entry i of the result is the mix of entry i of the
  aggregated array and entry i of the initial features (`result_is_mix`). The aggregation itself is
  kept whole, as the stage the reference's own reading names it.
-/
import proofs.«157857_j85727547228210_2_alg».proof.Proof.Gen.ReferenceIdeal.Read
import proofs.«157857_j85727547228210_2_alg».proof.Proof.Mix

noncomputable section

namespace Cert.ReferenceIdeal.RefMix

open Cert.ReferenceIdeal Cert.ReferenceIdeal.Gen Cert.ReferenceIdeal.Read Idealize.ShloMosaic Idealize.ShloMosaic.TcCoe

variable {F : FTy → Type} [FloatOps F]

/-- The reference's result is the entrywise mix of its aggregated array and the initial features. -/
theorem result_is_mix (x0 x1 : (⟨S100000x64, .f32⟩ : BufTy).Contents (Elt F)) (x2 x3 : (⟨S1600000, .i32⟩ : BufTy).Contents (Elt F))
    (x4 : (⟨S1600000, .f32⟩ : BufTy).Contents (Elt F)) :
    val_main_v18 (F := F) x0 x1 x2 x3 x4 = Mix.mixAll (val_main_v12 (F := F) x0 x2 x3 x4) x1 := by
  funext i
  rw [val_main_v18_apply, val_main_v17_apply, val_main_v14_apply, val_main_v16_apply, val_main_v13_apply,
    val_main_v15_apply, val_main_call0_v0_apply, val_main_cst_1_apply, val_main_cst_2_apply, val_main_call0_cst_apply]
  rfl

end Cert.ReferenceIdeal.RefMix

end
-- ==== Proof.lean ====
/-
  A graph convolution with a residual mix: the kernel against its reference.

  Both programs first aggregate neighbour features on the host — gather the feature rows the column
  indices name, scale each by its edge value, add it into the row its row index names — and then
  form, entry by entry,

      max (a * h + b * f) 0

  with h the aggregated feature, f the initial feature, and a, b the single-precision words
  0x3F666666 and 0x3DCCCCCD. The reference does the second step on the whole 100000 x 64 array at once;
  the kernel does it in ten tiles of 10000 rows, one per grid point. The aggregation is the same
  sequence of operations on the same arrays in both programs, and the second step is entrywise with
  the same three words, so the two results are the same function of the arguments: the only thing to
  prove is that ten row tiles, each the entrywise function of the matching input tiles, make up the
  entrywise function of the whole arrays. No law of arithmetic is used and the words are never
  evaluated, so finiteness of the inputs plays no part.

  The three frames: each kernel program's is its generated frame; the reference, a host program, runs
  to its composed term, and forgetting the result leaves its frame. The idealization rewrote no
  operation, so there is nothing to preserve beyond the text itself.
-/
import proofs.«157857_j85727547228210_2_alg».proof.Defs
import proofs.«157857_j85727547228210_2_alg».proof.Proof.Gen.Kernel
import proofs.«157857_j85727547228210_2_alg».proof.Proof.Gen.Kernel.Skeleton
import proofs.«157857_j85727547228210_2_alg».proof.Proof.Gen.Kernel.Launch
import proofs.«157857_j85727547228210_2_alg».proof.Proof.Gen.Kernel.Points
import proofs.«157857_j85727547228210_2_alg».proof.Proof.Gen.Kernel.Frame
import proofs.«157857_j85727547228210_2_alg».proof.Proof.Gen.KernelIdeal
import proofs.«157857_j85727547228210_2_alg».proof.Proof.Gen.KernelIdeal.Skeleton
import proofs.«157857_j85727547228210_2_alg».proof.Proof.Gen.KernelIdeal.Launch
import proofs.«157857_j85727547228210_2_alg».proof.Proof.Gen.KernelIdeal.Points
import proofs.«157857_j85727547228210_2_alg».proof.Proof.Gen.KernelIdeal.Frame
import proofs.«157857_j85727547228210_2_alg».proof.Proof.Gen.ReferenceIdeal
import proofs.«157857_j85727547228210_2_alg».proof.Proof.Gen.KernelIdeal.Value
import proofs.«157857_j85727547228210_2_alg».proof.Proof.Gen.ReferenceIdeal.Run
import proofs.«157857_j85727547228210_2_alg».proof.Proof.Gen.ReferenceIdeal.Read
import proofs.«157857_j85727547228210_2_alg».proof.Proof.Gen.Pre_finite_inputs
import proofs.«157857_j85727547228210_2_alg».proof.Proof.KernelRun
import proofs.«157857_j85727547228210_2_alg».proof.Proof.RefMix
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The two programs aggregate by the same operations: the kernel's aggregation and the stage the
    reference's reading names are one term. -/
theorem aggregate_same (x0 : (⟨Cert.KernelIdeal.S100000x64, .f32⟩ : BufTy).Contents (Elt Ideal))
    (x2 x3 : (⟨Cert.KernelIdeal.S1600000, .i32⟩ : BufTy).Contents (Elt Ideal))
    (x4 : (⟨Cert.KernelIdeal.S1600000, .f32⟩ : BufTy).Contents (Elt Ideal)) :
    Cert.ReferenceIdeal.Read.val_main_v12 (F := Ideal) x0 x2 x3 x4
      = Cert.KernelIdeal.Aggregate.aggregate (F := Ideal) x0 x2 x3 x4 := rfl

/-- Run from memories that agree on the arguments, both programs end with the result at the entrywise mix
    of the aggregation and the initial features. -/
theorem algebraic : Cert.algebraic_KernelIdeal_ReferenceIdeal := by
  intro m ρ m' ρ' _ hagree
  refine ⟨_, Cert.KernelIdeal.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v18_eq, Cert.ReferenceIdeal.RefMix.result_is_mix, a0, a1, a2, a3, a4,
    aggregate_same]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
